-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S5000x64 : Shape := ⟨2, ![5000, 64]⟩
abbrev S1x1 : Shape := ⟨2, ![1, 1]⟩
abbrev S5000x1 : Shape := ⟨2, ![5000, 1]⟩

abbrev nBuf : Space → Nat
  | .hbm => 59
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S_, .f32⟩
  | .hbm, ⟨51, _⟩ => ⟨S100000x64, .f32⟩
  | .hbm, ⟨52, _⟩ => ⟨S1000000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S1x1, .f32⟩
  | .hbm, ⟨58, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's whole run with its result named.

  @main is four segments: the host operations that aggregate the neighbours of every node (the mean of x over the
  incoming edges), the first layer's kernel, the host operations that aggregate the first layer's output in the same
  way, and the second layer's kernel with the classifier. Every weakly fair execution of these segments ends with each
  buffer the host side can see at the contents obtained by folding the segments over the launch memory; in particular
  the result buffer holds what the last kernel's write-backs leave, and no argument array has changed.
-/
import proofs.«111757_j59742995087911_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every buffer the host
    side can see holds the fold of the four segments over the launch memory. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer named: it ends at the second kernel's output array after all its write-backs,
    and every argument array ends as launched. -/
theorem run_named : θ_run defs (onTc (τ := τ) (main (F := F))) ⟨m, fun _ => 0, ρ⟩ (fun r => ∀ c : Dev nD,
      r.2.mem ((c.tc : Thread nD τ).loc main_v39) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v39 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_fold m ρ)

end Cert.KernelIdeal.RunNamed

end
-- ==== Proof.Spec.lean ====
/-
  The network both programs compute, written once as host operations of whole arrays.

  A graph of 100000 nodes and 1000000 directed edges, a 64-wide feature row per node. One mean aggregation gives every
  node the sum of the rows of the sources of its incoming edges, divided by the number of those edges (taken as 1 where
  there is none). A layer adds the aggregated rows times one weight matrix, the nodes' own rows times another and a
  bias, and clamps below at zero; the classifier is a last product with a 64 by 1 matrix plus a bias. The network is
  two layers, the second aggregating the first layer's output, and the classifier.

  The aggregation is never opened below: both programs apply the very same host operations, so it stays a function
  of the array it aggregates.
-/
import proofs.«111757_j59742995087911_1_alg».proof.Proof.Gen.ReferenceIdeal
import Idealize.ShloMosaic.PureOps.Ideal

noncomputable section

namespace Cert.Sage

open Cert.ReferenceIdeal Cert.ReferenceIdeal.Gen Idealize.ShloMosaic

variable {F : FTy → Type} [FloatOps F]

/-- The source node of every edge (row 0 of the edge list). -/
def sources (E : (⟨S2x1000000, .i32⟩ : BufTy).Contents (Elt F)) : (⟨S1000000, .i32⟩ : BufTy).Contents (Elt F) :=
  shapeCast _ (extractStridedSlice S1x1000000 ![0, 0] E slices_S2x1000000_S1x1000000_0_0) shapeCasts_S1x1000000_S1000000

/-- The target node of every edge (row 1 of the edge list). -/
def targets (E : (⟨S2x1000000, .i32⟩ : BufTy).Contents (Elt F)) : (⟨S1000000, .i32⟩ : BufTy).Contents (Elt F) :=
  shapeCast _ (extractStridedSlice S1x1000000 ![1, 0] E slices_S2x1000000_S1x1000000_1_0) shapeCasts_S1x1000000_S1000000

/-- The sources with a negative id counted from the end. -/
def wrappedSources (E : (⟨S2x1000000, .i32⟩ : BufTy).Contents (Elt F)) : (⟨S1000000, .i32⟩ : BufTy).Contents (Elt F) :=
  select (cmpi .slt (sources E) (broadcastInDim S1000000 ![] bcast_S_S1000000 (constantI S_ 32 0#32)))
    (addi (sources E) (broadcastInDim S1000000 ![] bcast_S_S1000000 (constantI S_ 32 100000#32))) (sources E)

/-- The number of incoming edges of every node, at least 1. -/
def inDegree (E : (⟨S2x1000000, .i32⟩ : BufTy).Contents (Elt F)) : (⟨S100000, .f32⟩ : BufTy).Contents (Elt F) :=
  maximumf (Host.scatterAdd scatter_S100000_S1000000x1_S1000000_n_0_0_1
      (broadcastInDim S100000 ![] bcast_S_S100000 (constant S_ .f32 0x00000000#32))
      (broadcastInDim S1000000x1 ![0] bcast_S1000000_S1000000x1_0 (targets E))
      (broadcastInDim S1000000 ![] bcast_S_S1000000 (constant S_ .f32 0x3F800000#32)))
    (broadcastInDim S100000 ![] bcast_S_S100000 (constant S_ .f32 0x3F800000#32))

/-- Mean aggregation: for every node the rows of `X` at the sources of its incoming edges, summed and divided by their
    number. -/
def meanAgg (X : (⟨S100000x64, .f32⟩ : BufTy).Contents (Elt F)) (E : (⟨S2x1000000, .i32⟩ : BufTy).Contents (Elt F)) :
    (⟨S100000x64, .f32⟩ : BufTy).Contents (Elt F) :=
  Host.divf (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 (targets E))
      (Host.gather gather_S100000x64_S1000000x1_S1000000x64_1_0_n_n_0_1_164 X
        (broadcastInDim S1000000x1 ![0] bcast_S1000000_S1000000x1_0 (wrappedSources E))))
    (broadcastInDim S100000x64 ![0, 1] bcast_S100000x1_S100000x64_0_1
      (broadcastInDim S100000x1 ![0] bcast_S100000_S100000x1_0 (inDegree E)))

/-- One layer: aggregated rows times `Wl`, plus own rows times `Wr`, plus the bias, clamped below at zero. -/
def layer (A X : (⟨S100000x64, .f32⟩ : BufTy).Contents (Elt F)) (Wl Wr : (⟨S64x64, .f32⟩ : BufTy).Contents (Elt F))
    (b : (⟨S64, .f32⟩ : BufTy).Contents (Elt F)) : (⟨S100000x64, .f32⟩ : BufTy).Contents (Elt F) :=
  maximumf (addf (addf (Host.dotGeneral dot_S100000x64_S64x64_S100000x64_1_0_0_1_n_n none A Wl)
        (Host.dotGeneral dot_S100000x64_S64x64_S100000x64_1_0_0_1_n_n none X Wr))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The classifier: a product with the 64 by 1 matrix plus its bias. -/
def classify (H : (⟨S100000x64, .f32⟩ : BufTy).Contents (Elt F)) (Wc : (⟨S64x1, .f32⟩ : BufTy).Contents (Elt F))
    (bc : (⟨S1, .f32⟩ : BufTy).Contents (Elt F)) : (⟨S100000x1, .f32⟩ : BufTy).Contents (Elt F) :=
  addf (Host.dotGeneral dot_S100000x64_S64x1_S100000x1_1_0_0_1_n_n none H Wc)
    (broadcastInDim S100000x1 ![0, 1] bcast_S1x1_S100000x1_0_1 (broadcastInDim S1x1 ![1] bcast_S1_S1x1_1 bc))

/-- The first layer's output. -/
def hidden (X : (⟨S100000x64, .f32⟩ : BufTy).Contents (Elt F)) (E : (⟨S2x1000000, .i32⟩ : BufTy).Contents (Elt F))
    (W1l W1r : (⟨S64x64, .f32⟩ : BufTy).Contents (Elt F)) (b1 : (⟨S64, .f32⟩ : BufTy).Contents (Elt F)) :
    (⟨S100000x64, .f32⟩ : BufTy).Contents (Elt F) :=
  layer (meanAgg X E) X W1l W1r b1

/-- The whole network. -/
def net (X : (⟨S100000x64, .f32⟩ : BufTy).Contents (Elt F)) (E : (⟨S2x1000000, .i32⟩ : BufTy).Contents (Elt F))
    (W1l W1r : (⟨S64x64, .f32⟩ : BufTy).Contents (Elt F)) (b1 : (⟨S64, .f32⟩ : BufTy).Contents (Elt F))
    (W2l W2r : (⟨S64x64, .f32⟩ : BufTy).Contents (Elt F)) (b2 : (⟨S64, .f32⟩ : BufTy).Contents (Elt F))
    (Wc : (⟨S64x1, .f32⟩ : BufTy).Contents (Elt F)) (bc : (⟨S1, .f32⟩ : BufTy).Contents (Elt F)) :
    (⟨S100000x1, .f32⟩ : BufTy).Contents (Elt F) :=
  classify (layer (meanAgg (hidden X E W1l W1r b1) E) (hidden X E W1l W1r b1) W2l W2r b2) Wc bc

end Cert.Sage

end
-- ==== Proof.HostSide.lean ====
/-
  What the host operations of the idealized kernel leave for its two kernels to read.

  Before the first kernel: the mean aggregation of the input rows, the bias as a 1 by 64 row, the arguments untouched.
  Between the kernels: the edge endpoints and the in-degree column computed before the first kernel are still there (the
  first kernel writes only its own output array), so the second aggregation is the same function, now of the first
  kernel's output array.
-/
import proofs.«111757_j59742995087911_1_alg».proof.Proof.Spec
import proofs.«111757_j59742995087911_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch of host operations -/

theorem first_sources (c : Dev nD) :
    W1 m ρ c (Proc.devRef .tc main_v1) = Cert.Sage.sources (m ((c.tc : Thread nD τ).loc main_arg1)) := by
  show StableHlo.after hostOps0 (W0 m ρ c) (Proc.devRef .tc main_v1) = _
  after_results_simp <;> rfl

theorem first_targets (c : Dev nD) :
    W1 m ρ c (Proc.devRef .tc main_v3) = Cert.Sage.targets (m ((c.tc : Thread nD τ).loc main_arg1)) := by
  show StableHlo.after hostOps0 (W0 m ρ c) (Proc.devRef .tc main_v3) = _
  after_results_simp <;> rfl

theorem first_degree (c : Dev nD) :
    W1 m ρ c (Proc.devRef .tc main_v10)
      = broadcastInDim Cert.ReferenceIdeal.S100000x1 ![0] Cert.ReferenceIdeal.Gen.bcast_S100000_S100000x1_0
          (Cert.Sage.inDegree (m ((c.tc : Thread nD τ).loc main_arg1))) := by
  show StableHlo.after hostOps0 (W0 m ρ c) (Proc.devRef .tc main_v10) = _
  after_results_simp <;> rfl

/-- The first kernel's window 0 reads the mean aggregation of the input rows. -/
theorem first_agg (c : Dev nD) :
    W1 m ρ c (Proc.devRef .tc main_v22)
      = Cert.Sage.meanAgg (m ((c.tc : Thread nD τ).loc main_arg0)) (m ((c.tc : Thread nD τ).loc main_arg1)) := by
  show StableHlo.after hostOps0 (W0 m ρ c) (Proc.devRef .tc main_v22) = _
  after_results_simp <;> rfl

/-- The first bias as a row. -/
theorem first_bias (c : Dev nD) :
    W1 m ρ c (Proc.devRef .tc main_v23) = shapeCast S1x64 (m ((c.tc : Thread nD τ).loc main_arg4)) shapeCasts_S64_S1x64 := by
  show StableHlo.after hostOps0 (W0 m ρ c) (Proc.devRef .tc main_v23) = _
  after_results_simp <;> rfl

theorem first_arg (c : Dev nD) (b : Ref sig .tc) (hb : b = main_arg0 ∨ b = main_arg1 ∨ b = main_arg2 ∨ b = main_arg3
      ∨ b = main_arg4 ∨ b = main_arg5 ∨ b = main_arg6 ∨ b = main_arg7 ∨ b = main_arg8 ∨ b = main_arg9) :
    W1 m ρ c (Proc.devRef .tc b) = m ((c.tc : Thread nD τ).loc b) := by
  show StableHlo.after hostOps0 (W0 m ρ c) (Proc.devRef .tc b) = _
  rcases hb with rfl | rfl | rfl | rfl | rfl | rfl | rfl | rfl | rfl | rfl <;> (after_results_simp <;> rfl)

end Cert.KernelIdeal.HostSide

end
-- ==== Proof.HostBetween.lean ====
/-
  What the second kernel reads.

  The first kernel writes only its own output array, so the edge endpoints and the in-degree column computed before it,
  and every argument, are still in place when the second stretch of host operations runs. That stretch aggregates the
  first kernel's output array with the same operations as the first aggregation and reshapes the two remaining biases.
-/
import proofs.«111757_j59742995087911_1_alg».proof.Proof.HostSide

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first kernel: what it did not write is as it was -/

theorem kept_sources (c : Dev nD) :
    W2 m ρ c (Proc.devRef .tc main_v1) = Cert.Sage.sources (m ((c.tc : Thread nD τ).loc main_arg1)) :=
  (W2_of_ne m ρ c main_v1 (by decide)).trans (first_sources m ρ c)

theorem kept_targets (c : Dev nD) :
    W2 m ρ c (Proc.devRef .tc main_v3) = Cert.Sage.targets (m ((c.tc : Thread nD τ).loc main_arg1)) :=
  (W2_of_ne m ρ c main_v3 (by decide)).trans (first_targets m ρ c)

theorem kept_degree (c : Dev nD) :
    W2 m ρ c (Proc.devRef .tc main_v10)
      = broadcastInDim Cert.ReferenceIdeal.S100000x1 ![0] Cert.ReferenceIdeal.Gen.bcast_S100000_S100000x1_0
          (Cert.Sage.inDegree (m ((c.tc : Thread nD τ).loc main_arg1))) :=
  (W2_of_ne m ρ c main_v10 (by decide)).trans (first_degree m ρ c)

theorem kept_arg5 (c : Dev nD) : W2 m ρ c (Proc.devRef .tc main_arg5) = m ((c.tc : Thread nD τ).loc main_arg5) :=
  (W2_of_ne m ρ c main_arg5 (by decide)).trans (first_arg m ρ c main_arg5 (by simp))
theorem kept_arg6 (c : Dev nD) : W2 m ρ c (Proc.devRef .tc main_arg6) = m ((c.tc : Thread nD τ).loc main_arg6) :=
  (W2_of_ne m ρ c main_arg6 (by decide)).trans (first_arg m ρ c main_arg6 (by simp))
theorem kept_arg7 (c : Dev nD) : W2 m ρ c (Proc.devRef .tc main_arg7) = m ((c.tc : Thread nD τ).loc main_arg7) :=
  (W2_of_ne m ρ c main_arg7 (by decide)).trans (first_arg m ρ c main_arg7 (by simp))
theorem kept_arg8 (c : Dev nD) : W2 m ρ c (Proc.devRef .tc main_arg8) = m ((c.tc : Thread nD τ).loc main_arg8) :=
  (W2_of_ne m ρ c main_arg8 (by decide)).trans (first_arg m ρ c main_arg8 (by simp))
theorem kept_arg9 (c : Dev nD) : W2 m ρ c (Proc.devRef .tc main_arg9) = m ((c.tc : Thread nD τ).loc main_arg9) :=
  (W2_of_ne m ρ c main_arg9 (by decide)).trans (first_arg m ρ c main_arg9 (by simp))

/-! ## After the second stretch of host operations -/

/-- The second kernel's window 0 reads the mean aggregation of the first kernel's output array. -/
theorem second_agg (c : Dev nD) :
    W3 m ρ c (Proc.devRef .tc main_v36)
      = Cert.Sage.meanAgg (W2 m ρ c (Proc.devRef .tc main_v24)) (m ((c.tc : Thread nD τ).loc main_arg1)) := by
  show StableHlo.after hostOps1 (W2 m ρ c) (Proc.devRef .tc main_v36) = _
  after_results_simp
  rw [kept_sources m ρ c, kept_targets m ρ c, kept_degree m ρ c]
  rfl

/-- Its window 1 reads the first kernel's output array. -/
theorem second_hidden (c : Dev nD) :
    W3 m ρ c (Proc.devRef .tc main_v24) = W2 m ρ c (Proc.devRef .tc main_v24) := by
  show StableHlo.after hostOps1 (W2 m ρ c) (Proc.devRef .tc main_v24) = _
  after_results_simp

theorem second_arg5 (c : Dev nD) : W3 m ρ c (Proc.devRef .tc main_arg5) = m ((c.tc : Thread nD τ).loc main_arg5) := by
  show StableHlo.after hostOps1 (W2 m ρ c) (Proc.devRef .tc main_arg5) = _
  after_results_simp
  exact kept_arg5 m ρ c
theorem second_arg6 (c : Dev nD) : W3 m ρ c (Proc.devRef .tc main_arg6) = m ((c.tc : Thread nD τ).loc main_arg6) := by
  show StableHlo.after hostOps1 (W2 m ρ c) (Proc.devRef .tc main_arg6) = _
  after_results_simp
  exact kept_arg6 m ρ c
theorem second_arg8 (c : Dev nD) : W3 m ρ c (Proc.devRef .tc main_arg8) = m ((c.tc : Thread nD τ).loc main_arg8) := by
  show StableHlo.after hostOps1 (W2 m ρ c) (Proc.devRef .tc main_arg8) = _
  after_results_simp
  exact kept_arg8 m ρ c

/-- The second bias as a row. -/
theorem second_bias (c : Dev nD) :
    W3 m ρ c (Proc.devRef .tc main_v37) = shapeCast S1x64 (m ((c.tc : Thread nD τ).loc main_arg7)) shapeCasts_S64_S1x64 := by
  show StableHlo.after hostOps1 (W2 m ρ c) (Proc.devRef .tc main_v37) = _
  after_results_simp
  rw [kept_arg7 m ρ c]
  rfl

/-- The classifier's bias as a 1 by 1 array. -/
theorem classifier_bias (c : Dev nD) :
    W3 m ρ c (Proc.devRef .tc main_v38) = shapeCast S1x1 (m ((c.tc : Thread nD τ).loc main_arg9)) shapeCasts_S1_S1x1 := by
  show StableHlo.after hostOps1 (W2 m ρ c) (Proc.devRef .tc main_v38) = _
  after_results_simp
  rw [kept_arg9 m ρ c]
  rfl

end Cert.KernelIdeal.HostSide

end
-- ==== Proof.LayerAt.lean ====
/-
  One entry of a layer and of the classifier, as sums on the extended reals.

  Entry (r, q) of a layer is the aggregated row r against column q of one weight matrix, plus the node's own row r
  against column q of the other, plus the bias at q, clamped below at zero (the zero is the binary word 0 of the
  format, left unevaluated on both sides). A logit is the layer's row against the classifier's column plus its bias.
-/
import Idealize.ShloMosaic.PureOps.Ideal
import Idealize.ShloMosaic.Lib.ValueIdx

noncomputable section

namespace Cert.Sage

open Idealize.ShloMosaic Idealize.ShloMosaic.ValueIdx

/-- Entry (r, q) of a layer over N rows. -/
def layerAt {N : Nat} (A X : (⟨2, ![N, 64]⟩ : Shape).Idx → EReal) (Wl Wr : (⟨2, ![64, 64]⟩ : Shape).Idx → EReal)
    (β : Fin 64 → EReal) (r : Fin N) (q : Fin 64) : EReal :=
  max ((∑ k : Fin 64, A (ix2 r k) * Wl (ix2 k q)) + (∑ k : Fin 64, X (ix2 r k) * Wr (ix2 k q)) + β q)
    (Ideal.ofBits .f32 0x00000000#32)

/-- A layer over N rows as an array; the bias is a 1 by 64 row. -/
def layerArr {N : Nat} (A X : (⟨2, ![N, 64]⟩ : Shape).Idx → EReal) (Wl Wr : (⟨2, ![64, 64]⟩ : Shape).Idx → EReal)
    (B : (⟨2, ![1, 64]⟩ : Shape).Idx → EReal) : (⟨2, ![N, 64]⟩ : Shape).Idx → EReal :=
  fun i => layerAt A X Wl Wr (fun q => B (ix2 (0 : Fin 1) q)) (i 0) (i 1)

/-- The logits over N rows as an N by 1 array: the layer's row against the 64 by 1 matrix, plus the 1 by 1 bias. -/
def logitArr {N : Nat} (A H : (⟨2, ![N, 64]⟩ : Shape).Idx → EReal) (Wl Wr : (⟨2, ![64, 64]⟩ : Shape).Idx → EReal)
    (B : (⟨2, ![1, 64]⟩ : Shape).Idx → EReal) (Wc : (⟨2, ![64, 1]⟩ : Shape).Idx → EReal)
    (Bc : (⟨2, ![1, 1]⟩ : Shape).Idx → EReal) : (⟨2, ![N, 1]⟩ : Shape).Idx → EReal :=
  fun i => (∑ j : Fin 64, layerAt A H Wl Wr (fun q => B (ix2 (0 : Fin 1) q)) (i 0) j * Wc (ix2 j (i 1)))
    + Bc (ix2 (0 : Fin 1) (i 1))

/-- A layer's entry depends on its arrays only through row r of the two row arrays, column q of the two matrices and
    entry q of the bias. -/
theorem layerAt_congr {N N' : Nat} (A X : (⟨2, ![N, 64]⟩ : Shape).Idx → EReal)
    (A' X' : (⟨2, ![N', 64]⟩ : Shape).Idx → EReal) (Wl Wr Wl' Wr' : (⟨2, ![64, 64]⟩ : Shape).Idx → EReal)
    (β β' : Fin 64 → EReal) (r : Fin N) (r' : Fin N') (q q' : Fin 64)
    (hA : ∀ k, A (ix2 r k) = A' (ix2 r' k)) (hX : ∀ k, X (ix2 r k) = X' (ix2 r' k))
    (hWl : ∀ k, Wl (ix2 k q) = Wl' (ix2 k q')) (hWr : ∀ k, Wr (ix2 k q) = Wr' (ix2 k q')) (hβ : β q = β' q') :
    layerAt A X Wl Wr β r q = layerAt A' X' Wl' Wr' β' r' q' := by
  unfold layerAt
  have e1 : (∑ k : Fin 64, A (ix2 r k) * Wl (ix2 k q)) = ∑ k : Fin 64, A' (ix2 r' k) * Wl' (ix2 k q') :=
    Finset.sum_congr rfl fun k _ => by rw [hA k, hWl k]
  have e2 : (∑ k : Fin 64, X (ix2 r k) * Wr (ix2 k q)) = ∑ k : Fin 64, X' (ix2 r' k) * Wr' (ix2 k q') :=
    Finset.sum_congr rfl fun k _ => by rw [hX k, hWr k]
  rw [e1, e2, hβ]

end Cert.Sage

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Body.lean ====
/-
  The two kernel bodies at an index, at the ideal instance.

  Both bodies start alike: the block of aggregated rows times one 64 by 64 matrix, plus the block of the nodes' own
  rows times another, plus the bias row repeated down the block, clamped below at zero. The format changes in between
  are the identity on the extended reals and each product is into a zero accumulator, so an entry of this hidden block
  is one entry of a layer over the block's 5000 rows. The first body stores the hidden block. The second multiplies it
  by the 64 by 1 classifier matrix and adds the 1 by 1 bias, so each of its 5000 entries is one logit.
-/
import proofs.«111757_j59742995087911_1_alg».proof.Proof.Gen.KernelIdeal.Skeleton
import proofs.«111757_j59742995087911_1_alg».proof.Proof.LayerAt
import proofs.«111757_j59742995087911_1_alg».proof.Proof.LibMatmulRows
import Idealize.ShloMosaic.Lib.Pipeline.Value
import Idealize.ShloMosaic.Lib.ValueIdx

noncomputable section

namespace Cert.KernelIdeal.Body

open Cert.KernelIdeal Cert.KernelIdeal.Gen Cert.Sage
open Idealize.ShloMosaic Idealize.ShloMosaic.ValueIdx

/-- A 1 by n row repeated down the rows of a block reads the row at the column. -/
theorem row_down {a n : Nat} (y : (⟨2, ![1, n]⟩ : Shape).Idx → EReal) (h : (⟨2, ![1, n]⟩ : Shape).Broadcasts ⟨2, ![a, n]⟩)
    (j : (⟨2, ![a, n]⟩ : Shape).Idx) : broadcastTo ⟨2, ![a, n]⟩ y h j = y (ix2 (0 : Fin 1) (j 1)) :=
  broadcastTo_apply y h j (ix2 (0 : Fin 1) (j 1)) (fun ax => match ax with
    | ⟨0, _⟩ => by
      show 0 = if (1 : ℕ) = 1 then 0 else _
      rw [if_pos rfl]
    | ⟨1, _⟩ => by
      show (j 1).val = if n = 1 then 0 else (j 1).val
      split
      · have := (j 1).isLt; simp at this; omega
      · rfl)

/-- What both bodies compute first: the hidden block. -/
def hiddenBlock (x0 x1 : Vec Ideal S5000x64 .f32) (x2 x3 : Vec Ideal S64x64 .f32) (x4 : Vec Ideal S1x64 .f32) :
    FVec Ideal S5000x64 .f32 :=
  maximumf (addf (addf
      (matmul dot_S5000x64_S64x64_S5000x64_1_0_0_1_n_n none (truncf .bf16 x0 bitsLt_bf16_f32) (truncf .bf16 x2 bitsLt_bf16_f32)
        (constant S5000x64 .f32 0x00000000#32))
      (matmul dot_S5000x64_S64x64_S5000x64_1_0_0_1_n_n none (truncf .bf16 x1 bitsLt_bf16_f32) (truncf .bf16 x3 bitsLt_bf16_f32)
        (constant S5000x64 .f32 0x00000000#32)))
      (broadcastTo S5000x64 x4 broadcasts_S1x64_S5000x64))
    (broadcast S5000x64 (Scalar.ofBits .f32 0x00000000#32))

/-- The free axes of the two products: the result's row is the left operand's row, its column the right operand's. -/
theorem square_left_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem square_right_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl
theorem column_left_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem column_right_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- A product of a block of rows with a 64 by 64 matrix, entry by entry. -/
theorem block_product (a : FVec Ideal S5000x64 .bf16) (w : FVec Ideal S64x64 .bf16) (j : S5000x64.Idx) :
    matmul dot_S5000x64_S64x64_S5000x64_1_0_0_1_n_n none a w (constant (F := Ideal) S5000x64 .f32 0x00000000#32) j
      = ∑ k : Fin 64, a (ix2 (j 0) k) * w (ix2 k (j 1)) :=
  MatmulRows.matmul_zero_apply dot_S5000x64_S64x64_S5000x64_1_0_0_1_n_n none rfl rfl rfl rfl square_left_row
    square_right_col a w j

/-- An entry of the hidden block is an entry of a layer over the block's rows. -/
theorem hiddenBlock_apply (x0 x1 : Vec Ideal S5000x64 .f32) (x2 x3 : Vec Ideal S64x64 .f32) (x4 : Vec Ideal S1x64 .f32)
    (j : S5000x64.Idx) :
    hiddenBlock x0 x1 x2 x3 x4 j = layerAt x0 x1 x2 x3 (fun q => x4 (ix2 (0 : Fin 1) q)) (j 0) (j 1) := by
  unfold hiddenBlock layerAt
  rw [maximumf_apply, addf_apply, addf_apply, block_product, block_product, row_down]
  rfl

/-- The first body stores the hidden block. -/
theorem first_payload (x0 x1 : Vec Ideal S5000x64 .f32) (x2 x3 : Vec Ideal S64x64 .f32) (x4 : Vec Ideal S1x64 .f32) :
    k0_pay1 x0 x1 x2 x3 x4 = hiddenBlock x0 x1 x2 x3 x4 := by
  unfold k0_pay1 hiddenBlock
  simp only [shapeCast_self]

/-- A product of a block of rows with the 64 by 1 matrix, entry by entry, with the rows named. -/
theorem column_product (a : FVec Ideal S5000x64 .bf16) (w : FVec Ideal S64x1 .bf16) (j : S5000x1.Idx)
    (L : Fin 64 → EReal) (hl : ∀ k, a (ix2 (j 0) k) = L k) :
    matmul dot_S5000x64_S64x1_S5000x1_1_0_0_1_n_n none a w (constant (F := Ideal) S5000x1 .f32 0x00000000#32) j
      = ∑ k : Fin 64, L k * w (ix2 k (j 1)) :=
  MatmulRows.matmul_zero_rows dot_S5000x64_S64x1_S5000x1_1_0_0_1_n_n none rfl rfl rfl rfl column_left_row
    column_right_col a w j L (fun k => w (ix2 k (j 1))) hl (fun _ => rfl)

/-- The second body stores the logits of its 5000 rows. -/
theorem second_payload (x0 x1 : Vec Ideal S5000x64 .f32) (x2 x3 : Vec Ideal S64x64 .f32) (x4 : Vec Ideal S1x64 .f32)
    (x5 : Vec Ideal S64x1 .f32) (x6 : Vec Ideal S1x1 .f32) (j : S5000x1.Idx) :
    k1_pay1 x0 x1 x2 x3 x4 x5 x6 j
      = (∑ k : Fin 64, layerAt x0 x1 x2 x3 (fun q => x4 (ix2 (0 : Fin 1) q)) (j 0) k * x5 (ix2 k (j 1)))
        + x6 (ix2 (0 : Fin 1) (j 1)) := by
  have e : k1_pay1 x0 x1 x2 x3 x4 x5 x6
      = addf (matmul dot_S5000x64_S64x1_S5000x1_1_0_0_1_n_n none (truncf .bf16 (hiddenBlock x0 x1 x2 x3 x4) bitsLt_bf16_f32)
          (truncf .bf16 x5 bitsLt_bf16_f32) (constant S5000x1 .f32 0x00000000#32))
        (broadcastTo S5000x1 x6 broadcasts_S1x1_S5000x1) := by
    unfold k1_pay1 hiddenBlock
    simp only [shapeCast_self]
  rw [e, addf_apply, row_down,
    column_product (truncf .bf16 (hiddenBlock x0 x1 x2 x3 x4) bitsLt_bf16_f32) (truncf .bf16 x5 bitsLt_bf16_f32) j
      (fun k => layerAt x0 x1 x2 x3 (fun q => x4 (ix2 (0 : Fin 1) q)) (j 0) k)
      (fun k => hiddenBlock_apply x0 x1 x2 x3 x4 (ix2 (j 0) k))]
  rfl

end Cert.KernelIdeal.Body

end
-- ==== Proof.FirstKernel.lean ====
/-
  The first kernel's output array, from the blocks its 20 grid points write back.

  Point t reads rows 5000 t … 5000 t + 4999 of the aggregated array and of the nodes' own rows, the two weight matrices
  and the bias row whole, and writes back the same rows of the output. An entry of a layer depends on its row arrays only
  through that entry's row, so the block written at point t is the block of the layer over all 100000 rows; the 20 blocks
  tile the output array, which therefore ends at the layer of the arrays the kernel was entered with.
-/
import proofs.«111757_j59742995087911_1_alg».proof.Proof.Gen.KernelIdeal.Frame
import proofs.«111757_j59742995087911_1_alg».proof.Proof.Body
import proofs.«111757_j59742995087911_1_alg».proof.Proof.LayerAt
import Idealize.ShloMosaic.Lib.Pipeline.Value
import Idealize.ShloMosaic.Lib.Tactic

set_option maxRecDepth 16384

noncomputable section

namespace Cert.KernelIdeal.First

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the 20 grid points: the two row windows and the output window sit at block row `t`
    of their arrays, every other window at its whole array. -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- Window 0's block at point `t` read at `y`: row 5000 t + y₀ of its array. -/
theorem read_0 (c : Dev nD) (t : Fin cfg0.N) (y : S5000x64.Idx) (i : S100000x64.Idx)
    (h0 : (i 0).val = 5000 * t.val + (y 0).val) (h1 : (i 1).val = (y 1).val) :
    (iblk0 V c 0 t : S5000x64.Idx → EReal) y = (V c main_v22 : S100000x64.Idx → EReal) i := by
  obtain ⟨e00, e01, e10, e11, e20, e21, e30, e31, e40, e41, e50, e51⟩ := index_facts t
  unfold iblk0
  rw [View.read_apply]
  show V c main_v22 _ = V c main_v22 _
  congr 1
  funext a
  apply Fin.ext
  match a with
  | ⟨0, _⟩ => show win0_0.index t 0 * 5000 + 1 * (y 0).val = (i 0).val; rw [e00, h0]; omega
  | ⟨1, _⟩ => show win0_0.index t 1 * 64 + 1 * (y 1).val = (i 1).val; rw [e01, h1]; omega

/-- Window 1's block at point `t` read at `y`: row 5000 t + y₀ of its array. -/
theorem read_1 (c : Dev nD) (t : Fin cfg0.N) (y : S5000x64.Idx) (i : S100000x64.Idx)
    (h0 : (i 0).val = 5000 * t.val + (y 0).val) (h1 : (i 1).val = (y 1).val) :
    (iblk0 V c 1 t : S5000x64.Idx → EReal) y = (V c main_arg0 : S100000x64.Idx → EReal) i := by
  obtain ⟨e00, e01, e10, e11, e20, e21, e30, e31, e40, e41, e50, e51⟩ := index_facts t
  unfold iblk0
  rw [View.read_apply]
  show V c main_arg0 _ = V c main_arg0 _
  congr 1
  funext a
  apply Fin.ext
  match a with
  | ⟨0, _⟩ => show win0_1.index t 0 * 5000 + 1 * (y 0).val = (i 0).val; rw [e10, h0]; omega
  | ⟨1, _⟩ => show win0_1.index t 1 * 64 + 1 * (y 1).val = (i 1).val; rw [e11, h1]; omega

/-- Window 2's block at point `t` read at `y`: its whole array at y. -/
theorem read_2 (c : Dev nD) (t : Fin cfg0.N) (y : S64x64.Idx) (i : S64x64.Idx)
    (h0 : (i 0).val = (y 0).val) (h1 : (i 1).val = (y 1).val) :
    (iblk0 V c 2 t : S64x64.Idx → EReal) y = (V c main_arg2 : S64x64.Idx → EReal) i := by
  obtain ⟨e00, e01, e10, e11, e20, e21, e30, e31, e40, e41, e50, e51⟩ := index_facts t
  unfold iblk0
  rw [View.read_apply]
  show V c main_arg2 _ = V c main_arg2 _
  congr 1
  funext a
  apply Fin.ext
  match a with
  | ⟨0, _⟩ => show win0_2.index t 0 * 64 + 1 * (y 0).val = (i 0).val; rw [e20, h0]; omega
  | ⟨1, _⟩ => show win0_2.index t 1 * 64 + 1 * (y 1).val = (i 1).val; rw [e21, h1]; omega

/-- Window 3's block at point `t` read at `y`: its whole array at y. -/
theorem read_3 (c : Dev nD) (t : Fin cfg0.N) (y : S64x64.Idx) (i : S64x64.Idx)
    (h0 : (i 0).val = (y 0).val) (h1 : (i 1).val = (y 1).val) :
    (iblk0 V c 3 t : S64x64.Idx → EReal) y = (V c main_arg3 : S64x64.Idx → EReal) i := by
  obtain ⟨e00, e01, e10, e11, e20, e21, e30, e31, e40, e41, e50, e51⟩ := index_facts t
  unfold iblk0
  rw [View.read_apply]
  show V c main_arg3 _ = V c main_arg3 _
  congr 1
  funext a
  apply Fin.ext
  match a with
  | ⟨0, _⟩ => show win0_3.index t 0 * 64 + 1 * (y 0).val = (i 0).val; rw [e30, h0]; omega
  | ⟨1, _⟩ => show win0_3.index t 1 * 64 + 1 * (y 1).val = (i 1).val; rw [e31, h1]; omega

/-- Window 4's block at point `t` read at `y`: its whole array at y. -/
theorem read_4 (c : Dev nD) (t : Fin cfg0.N) (y : S1x64.Idx) (i : S1x64.Idx)
    (h0 : (i 0).val = (y 0).val) (h1 : (i 1).val = (y 1).val) :
    (iblk0 V c 4 t : S1x64.Idx → EReal) y = (V c main_v23 : S1x64.Idx → EReal) i := by
  obtain ⟨e00, e01, e10, e11, e20, e21, e30, e31, e40, e41, e50, e51⟩ := index_facts t
  unfold iblk0
  rw [View.read_apply]
  show V c main_v23 _ = V c main_v23 _
  congr 1
  funext a
  apply Fin.ext
  match a with
  | ⟨0, _⟩ => show win0_4.index t 0 * 1 + 1 * (y 0).val = (i 0).val; rw [e40, h0]; omega
  | ⟨1, _⟩ => show win0_4.index t 1 * 64 + 1 * (y 1).val = (i 1).val; rw [e41, h1]; omega

/-- Where the output block's entry `j` lands in the output array: row 5000 t + j₀, column j₁. -/
theorem out_emb (t : Fin cfg0.N) (j : S5000x64.Idx) :
    ((((cfg0.win 5).blk t).view.emb j) 0).val = 5000 * t.val + (j 0).val
    ∧ ((((cfg0.win 5).blk t).view.emb j) 1).val = (j 1).val := by
  obtain ⟨e00, e01, e10, e11, e20, e21, e30, e31, e40, e41, e50, e51⟩ := index_facts t
  constructor
  · show win0_5.index t 0 * 5000 + 1 * (j 0).val = _; rw [e50]; omega
  · show win0_5.index t 1 * 64 + 1 * (j 1).val = _; rw [e51]; omega

/-- What point `t` writes back is block `t` of the layer over the arrays as the kernel finds them. -/
theorem flushed_eq (c : Dev nD) (t : Fin cfg0.N) :
    (dat0 V c).flushed 5 t = ((cfg0.win 5).blk t).view.read (Elt Ideal)
      (layerArr (N := 100000) (V c main_v22) (V c main_arg0) (V c main_arg2) (V c main_arg3) (V c main_v23)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [Body.first_payload]
  funext j
  obtain ⟨o0, o1⟩ := out_emb t j
  have key : layerAt (N := 5000) (iblk0 V c 0 t) (iblk0 V c 1 t) (iblk0 V c 2 t) (iblk0 V c 3 t)
        (fun q => (iblk0 V c 4 t : S1x64.Idx → EReal) (ix2 (0 : Fin 1) q)) (j 0) (j 1)
      = layerAt (N := 100000) (V c main_v22) (V c main_arg0) (V c main_arg2) (V c main_arg3)
        (fun q => (V c main_v23 : S1x64.Idx → EReal) (ix2 (0 : Fin 1) q))
        ((((cfg0.win 5).blk t).view.emb j) 0) ((((cfg0.win 5).blk t).view.emb j) 1) :=
    layerAt_congr _ _ _ _ _ _ _ _ _ _ _ _ _ _
      (fun k => read_0 V c t (ix2 (j 0) k) (ix2 _ k) o0 rfl)
      (fun k => read_1 V c t (ix2 (j 0) k) (ix2 _ k) o0 rfl)
      (fun k => read_2 V c t (ix2 k (j 1)) (ix2 k _) rfl o1)
      (fun k => read_3 V c t (ix2 k (j 1)) (ix2 k _) rfl o1)
      (read_4 V c t (ix2 (0 : Fin 1) (j 1)) (ix2 (0 : Fin 1) _) rfl o1)
  exact (Body.hiddenBlock_apply (iblk0 V c 0 t) (iblk0 V c 1 t) (iblk0 V c 2 t) (iblk0 V c 3 t) (iblk0 V c 4 t) j).trans key

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- Row r of the output array is written at point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨e00, e01, e10, e11, e20, e21, e30, e31, e40, e41, e50, e51⟩ := index_facts ⟨(i 0).val / 5000, by rw [hN]; omega⟩
  intro a
  match a with
  | ⟨0, _⟩ =>
    show win0_5.index _ 0 * 5000 ≤ (i 0).val ∧ (i 0).val < win0_5.index _ 0 * 5000 + 5000
    rw [e50]
    show (i 0).val / 5000 * 5000 ≤ (i 0).val ∧ (i 0).val < (i 0).val / 5000 * 5000 + 5000
    omega
  | ⟨1, _⟩ =>
    show win0_5.index _ 1 * 64 ≤ (i 1).val ∧ (i 1).val < win0_5.index _ 1 * 64 + 64
    rw [e51]
    omega

/-- The first kernel's output array after the run: the layer of the arrays it was entered with. -/
theorem final (c : Dev nD) :
    (dat0 V c).arrAt 5 cfg0.N
      = layerArr (N := 100000) (V c main_v22) (V c main_arg0) (V c main_arg2) (V c main_arg3) (V c main_v23) :=
  (dat0 V c).arrAt_eq_of_cover 5 _ (fun t _ => flushed_eq V c t) cover

end Cert.KernelIdeal.First

end
-- ==== Proof.SecondKernel.lean ====
/-
  The second kernel's output array, from the blocks its 20 grid points write back.

  Point t reads rows 5000 t … 5000 t + 4999 of the second aggregation and of the first layer's output, the weights, the
  classifier matrix and the two biases whole, and writes back the same rows of the 100000 by 1 output. A logit depends
  on its row arrays only through its own row, so the block written at point t is the block of the logits over all rows;
  the 20 blocks tile the output array.
-/
import proofs.«111757_j59742995087911_1_alg».proof.Proof.Gen.KernelIdeal.Frame
import proofs.«111757_j59742995087911_1_alg».proof.Proof.Body
import proofs.«111757_j59742995087911_1_alg».proof.Proof.LayerAt
import Idealize.ShloMosaic.Lib.Pipeline.Value
import Idealize.ShloMosaic.Lib.Tactic

set_option maxRecDepth 16384

noncomputable section

namespace Cert.KernelIdeal.Second

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the 20 grid points: the two row windows and the output window sit at block row `t`
    of their arrays, every other window at its whole array. -/
theorem index_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- Window 0's block at point `t` read at `y`: row 5000 t + y₀ of its array. -/
theorem read_0 (c : Dev nD) (t : Fin cfg1.N) (y : S5000x64.Idx) (i : S100000x64.Idx)
    (h0 : (i 0).val = 5000 * t.val + (y 0).val) (h1 : (i 1).val = (y 1).val) :
    (iblk1 V c 0 t : S5000x64.Idx → EReal) y = (V c main_v36 : S100000x64.Idx → EReal) i := by
  obtain ⟨e00, e01, e10, e11, e20, e21, e30, e31, e40, e41, e50, e51, e60, e61, e70, e71⟩ := index_facts t
  unfold iblk1
  rw [View.read_apply]
  show V c main_v36 _ = V c main_v36 _
  congr 1
  funext a
  apply Fin.ext
  match a with
  | ⟨0, _⟩ => show win1_0.index t 0 * 5000 + 1 * (y 0).val = (i 0).val; rw [e00, h0]; omega
  | ⟨1, _⟩ => show win1_0.index t 1 * 64 + 1 * (y 1).val = (i 1).val; rw [e01, h1]; omega

/-- Window 1's block at point `t` read at `y`: row 5000 t + y₀ of its array. -/
theorem read_1 (c : Dev nD) (t : Fin cfg1.N) (y : S5000x64.Idx) (i : S100000x64.Idx)
    (h0 : (i 0).val = 5000 * t.val + (y 0).val) (h1 : (i 1).val = (y 1).val) :
    (iblk1 V c 1 t : S5000x64.Idx → EReal) y = (V c main_v24 : S100000x64.Idx → EReal) i := by
  obtain ⟨e00, e01, e10, e11, e20, e21, e30, e31, e40, e41, e50, e51, e60, e61, e70, e71⟩ := index_facts t
  unfold iblk1
  rw [View.read_apply]
  show V c main_v24 _ = V c main_v24 _
  congr 1
  funext a
  apply Fin.ext
  match a with
  | ⟨0, _⟩ => show win1_1.index t 0 * 5000 + 1 * (y 0).val = (i 0).val; rw [e10, h0]; omega
  | ⟨1, _⟩ => show win1_1.index t 1 * 64 + 1 * (y 1).val = (i 1).val; rw [e11, h1]; omega

/-- Window 2's block at point `t` read at `y`: its whole array at y. -/
theorem read_2 (c : Dev nD) (t : Fin cfg1.N) (y : S64x64.Idx) (i : S64x64.Idx)
    (h0 : (i 0).val = (y 0).val) (h1 : (i 1).val = (y 1).val) :
    (iblk1 V c 2 t : S64x64.Idx → EReal) y = (V c main_arg5 : S64x64.Idx → EReal) i := by
  obtain ⟨e00, e01, e10, e11, e20, e21, e30, e31, e40, e41, e50, e51, e60, e61, e70, e71⟩ := index_facts t
  unfold iblk1
  rw [View.read_apply]
  show V c main_arg5 _ = V c main_arg5 _
  congr 1
  funext a
  apply Fin.ext
  match a with
  | ⟨0, _⟩ => show win1_2.index t 0 * 64 + 1 * (y 0).val = (i 0).val; rw [e20, h0]; omega
  | ⟨1, _⟩ => show win1_2.index t 1 * 64 + 1 * (y 1).val = (i 1).val; rw [e21, h1]; omega

/-- Window 3's block at point `t` read at `y`: its whole array at y. -/
theorem read_3 (c : Dev nD) (t : Fin cfg1.N) (y : S64x64.Idx) (i : S64x64.Idx)
    (h0 : (i 0).val = (y 0).val) (h1 : (i 1).val = (y 1).val) :
    (iblk1 V c 3 t : S64x64.Idx → EReal) y = (V c main_arg6 : S64x64.Idx → EReal) i := by
  obtain ⟨e00, e01, e10, e11, e20, e21, e30, e31, e40, e41, e50, e51, e60, e61, e70, e71⟩ := index_facts t
  unfold iblk1
  rw [View.read_apply]
  show V c main_arg6 _ = V c main_arg6 _
  congr 1
  funext a
  apply Fin.ext
  match a with
  | ⟨0, _⟩ => show win1_3.index t 0 * 64 + 1 * (y 0).val = (i 0).val; rw [e30, h0]; omega
  | ⟨1, _⟩ => show win1_3.index t 1 * 64 + 1 * (y 1).val = (i 1).val; rw [e31, h1]; omega

/-- Window 4's block at point `t` read at `y`: its whole array at y. -/
theorem read_4 (c : Dev nD) (t : Fin cfg1.N) (y : S1x64.Idx) (i : S1x64.Idx)
    (h0 : (i 0).val = (y 0).val) (h1 : (i 1).val = (y 1).val) :
    (iblk1 V c 4 t : S1x64.Idx → EReal) y = (V c main_v37 : S1x64.Idx → EReal) i := by
  obtain ⟨e00, e01, e10, e11, e20, e21, e30, e31, e40, e41, e50, e51, e60, e61, e70, e71⟩ := index_facts t
  unfold iblk1
  rw [View.read_apply]
  show V c main_v37 _ = V c main_v37 _
  congr 1
  funext a
  apply Fin.ext
  match a with
  | ⟨0, _⟩ => show win1_4.index t 0 * 1 + 1 * (y 0).val = (i 0).val; rw [e40, h0]; omega
  | ⟨1, _⟩ => show win1_4.index t 1 * 64 + 1 * (y 1).val = (i 1).val; rw [e41, h1]; omega

/-- Window 5's block at point `t` read at `y`: its whole array at y. -/
theorem read_5 (c : Dev nD) (t : Fin cfg1.N) (y : S64x1.Idx) (i : S64x1.Idx)
    (h0 : (i 0).val = (y 0).val) (h1 : (i 1).val = (y 1).val) :
    (iblk1 V c 5 t : S64x1.Idx → EReal) y = (V c main_arg8 : S64x1.Idx → EReal) i := by
  obtain ⟨e00, e01, e10, e11, e20, e21, e30, e31, e40, e41, e50, e51, e60, e61, e70, e71⟩ := index_facts t
  unfold iblk1
  rw [View.read_apply]
  show V c main_arg8 _ = V c main_arg8 _
  congr 1
  funext a
  apply Fin.ext
  match a with
  | ⟨0, _⟩ => show win1_5.index t 0 * 64 + 1 * (y 0).val = (i 0).val; rw [e50, h0]; omega
  | ⟨1, _⟩ => show win1_5.index t 1 * 1 + 1 * (y 1).val = (i 1).val; rw [e51, h1]; omega

/-- Window 6's block at point `t` read at `y`: its whole array at y. -/
theorem read_6 (c : Dev nD) (t : Fin cfg1.N) (y : S1x1.Idx) (i : S1x1.Idx)
    (h0 : (i 0).val = (y 0).val) (h1 : (i 1).val = (y 1).val) :
    (iblk1 V c 6 t : S1x1.Idx → EReal) y = (V c main_v38 : S1x1.Idx → EReal) i := by
  obtain ⟨e00, e01, e10, e11, e20, e21, e30, e31, e40, e41, e50, e51, e60, e61, e70, e71⟩ := index_facts t
  unfold iblk1
  rw [View.read_apply]
  show V c main_v38 _ = V c main_v38 _
  congr 1
  funext a
  apply Fin.ext
  match a with
  | ⟨0, _⟩ => show win1_6.index t 0 * 1 + 1 * (y 0).val = (i 0).val; rw [e60, h0]; omega
  | ⟨1, _⟩ => show win1_6.index t 1 * 1 + 1 * (y 1).val = (i 1).val; rw [e61, h1]; omega

/-- Where the output block's entry `j` lands in the output array: row 5000 t + j₀, column j₁. -/
theorem out_emb (t : Fin cfg1.N) (j : S5000x1.Idx) :
    ((((cfg1.win 7).blk t).view.emb j) 0).val = 5000 * t.val + (j 0).val
    ∧ ((((cfg1.win 7).blk t).view.emb j) 1).val = (j 1).val := by
  obtain ⟨e00, e01, e10, e11, e20, e21, e30, e31, e40, e41, e50, e51, e60, e61, e70, e71⟩ := index_facts t
  constructor
  · show win1_7.index t 0 * 5000 + 1 * (j 0).val = _; rw [e70]; omega
  · show win1_7.index t 1 * 1 + 1 * (j 1).val = _; rw [e71]; omega

/-- What point `t` writes back is block `t` of the logits over the arrays as the kernel finds them. -/
theorem flushed_eq (c : Dev nD) (t : Fin cfg1.N) :
    (dat1 V c).flushed 7 t = ((cfg1.win 7).blk t).view.read (Elt Ideal)
      (logitArr (N := 100000) (V c main_v36) (V c main_v24) (V c main_arg5) (V c main_arg6) (V c main_v37)
        (V c main_arg8) (V c main_v38)) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  funext j
  obtain ⟨o0, o1⟩ := out_emb t j
  have hrow : ∀ k : Fin 64,
      layerAt (N := 5000) (iblk1 V c 0 t) (iblk1 V c 1 t) (iblk1 V c 2 t) (iblk1 V c 3 t)
        (fun q => (iblk1 V c 4 t : S1x64.Idx → EReal) (ix2 (0 : Fin 1) q)) (j 0) k
      = layerAt (N := 100000) (V c main_v36) (V c main_v24) (V c main_arg5) (V c main_arg6)
        (fun q => (V c main_v37 : S1x64.Idx → EReal) (ix2 (0 : Fin 1) q)) ((((cfg1.win 7).blk t).view.emb j) 0) k :=
    fun k => layerAt_congr _ _ _ _ _ _ _ _ _ _ _ _ _ _
      (fun k' => read_0 V c t (ix2 (j 0) k') (ix2 _ k') o0 rfl)
      (fun k' => read_1 V c t (ix2 (j 0) k') (ix2 _ k') o0 rfl)
      (fun k' => read_2 V c t (ix2 k' k) (ix2 k' k) rfl rfl)
      (fun k' => read_3 V c t (ix2 k' k) (ix2 k' k) rfl rfl)
      (read_4 V c t (ix2 (0 : Fin 1) k) (ix2 (0 : Fin 1) k) rfl rfl)
  have hsum : (∑ k : Fin 64, layerAt (N := 5000) (iblk1 V c 0 t) (iblk1 V c 1 t) (iblk1 V c 2 t) (iblk1 V c 3 t)
        (fun q => (iblk1 V c 4 t : S1x64.Idx → EReal) (ix2 (0 : Fin 1) q)) (j 0) k
          * (iblk1 V c 5 t : S64x1.Idx → EReal) (ix2 k (j 1)))
      = ∑ k : Fin 64, layerAt (N := 100000) (V c main_v36) (V c main_v24) (V c main_arg5) (V c main_arg6)
        (fun q => (V c main_v37 : S1x64.Idx → EReal) (ix2 (0 : Fin 1) q)) ((((cfg1.win 7).blk t).view.emb j) 0) k
          * (V c main_arg8 : S64x1.Idx → EReal) (ix2 k ((((cfg1.win 7).blk t).view.emb j) 1)) :=
    Finset.sum_congr rfl fun k _ => by
      rw [hrow k, read_5 V c t (ix2 k (j 1)) (ix2 k ((((cfg1.win 7).blk t).view.emb j) 1)) rfl o1]
  exact (Body.second_payload (iblk1 V c 0 t) (iblk1 V c 1 t) (iblk1 V c 2 t) (iblk1 V c 3 t) (iblk1 V c 4 t)
      (iblk1 V c 5 t) (iblk1 V c 6 t) j).trans
    (congrArg₂ (· + ·) hsum
      (read_6 V c t (ix2 (0 : Fin 1) (j 1)) (ix2 (0 : Fin 1) ((((cfg1.win 7).blk t).view.emb j) 1)) rfl o1))

/-- An index of the output array is in point `t`'s block iff each coordinate is in the block's range on its axis. -/
theorem mem_blk (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v39).slice (win1_7.rect t)).set ↔ _
  rw [View.set_slice_whole, Rect.mem_set_unit]
  exact Iff.rfl

/-- Row r of the output array is written at point r / 5000. -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_7 _, ?_⟩
  rw [mem_blk]
  obtain ⟨e00, e01, e10, e11, e20, e21, e30, e31, e40, e41, e50, e51, e60, e61, e70, e71⟩ :=
    index_facts ⟨(i 0).val / 5000, by rw [hN]; omega⟩
  intro a
  match a with
  | ⟨0, _⟩ =>
    show win1_7.index _ 0 * 5000 ≤ (i 0).val ∧ (i 0).val < win1_7.index _ 0 * 5000 + 5000
    rw [e70]
    show (i 0).val / 5000 * 5000 ≤ (i 0).val ∧ (i 0).val < (i 0).val / 5000 * 5000 + 5000
    omega
  | ⟨1, _⟩ =>
    show win1_7.index _ 1 * 1 ≤ (i 1).val ∧ (i 1).val < win1_7.index _ 1 * 1 + 1
    rw [e71]
    omega

/-- The second kernel's output array after the run: the logits of the arrays it was entered with. -/
theorem final (c : Dev nD) :
    (dat1 V c).arrAt 7 cfg1.N
      = logitArr (N := 100000) (V c main_v36) (V c main_v24) (V c main_arg5) (V c main_arg6) (V c main_v37)
          (V c main_arg8) (V c main_v38) :=
  (dat1 V c).arrAt_eq_of_cover 7 _ (fun t _ => flushed_eq V c t) cover

end Cert.KernelIdeal.Second

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.RefLayers.lean ====
/-
  The network's layer and classifier, spelt as host operations, read at an index on the extended reals.

  A host product of an N by 64 array with a 64 by 64 (or 64 by 1) matrix is the plain sum over the 64 contracted
  positions; the bias reaches every row through two broadcasts; the clamp is against the zero word. So the layer is
  the array of `layerAt` entries with the bias held as a 1 by 64 row, and the classifier of a layer is the array of
  logits with its bias held as a 1 by 1 array.
-/
import proofs.«111757_j59742995087911_1_alg».proof.Proof.Spec
import proofs.«111757_j59742995087911_1_alg».proof.Proof.LayerAt
import proofs.«111757_j59742995087911_1_alg».proof.Proof.LibMatmulRows
import proofs.«111757_j59742995087911_1_alg».proof.Proof.LibHostBroadcast
import proofs.«111757_j59742995087911_1_alg».proof.Proof.LibVectorAsMatrix

noncomputable section

namespace Cert.Sage

open Cert.ReferenceIdeal Cert.ReferenceIdeal.Gen
open Idealize.ShloMosaic Idealize.ShloMosaic.ValueIdx

theorem wide_left_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem wide_right_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl
theorem logit_left_row (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl
theorem logit_right_col (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- The host's product with a 64 by 64 matrix, entry by entry. -/
theorem host_product (a : FVec Ideal S100000x64 .f32) (w : FVec Ideal S64x64 .f32) (i : S100000x64.Idx) :
    Host.dotGeneral dot_S100000x64_S64x64_S100000x64_1_0_0_1_n_n none a w i
      = ∑ k : Fin 64, a (ix2 (i 0) k) * w (ix2 k (i 1)) := by
  simp only [Host.dotGeneral]
  exact MatmulRows.dotGeneral_apply dot_S100000x64_S64x64_S100000x64_1_0_0_1_n_n none _ rfl rfl rfl rfl wide_left_row
    wide_right_col a w i

/-- The host's product with the 64 by 1 matrix, entry by entry. -/
theorem host_column_product (a : FVec Ideal S100000x64 .f32) (w : FVec Ideal S64x1 .f32) (i : S100000x1.Idx) :
    Host.dotGeneral dot_S100000x64_S64x1_S100000x1_1_0_0_1_n_n none a w i
      = ∑ k : Fin 64, a (ix2 (i 0) k) * w (ix2 k (i 1)) := by
  simp only [Host.dotGeneral]
  exact MatmulRows.dotGeneral_apply dot_S100000x64_S64x1_S100000x1_1_0_0_1_n_n none _ rfl rfl rfl rfl logit_left_row
    logit_right_col a w i

/-- The layer is the array of its entries, the bias held as a row. -/
theorem layer_eq (A X : (⟨S100000x64, .f32⟩ : BufTy).Contents (Elt Ideal)) (Wl Wr : (⟨S64x64, .f32⟩ : BufTy).Contents (Elt Ideal))
    (b : (⟨S64, .f32⟩ : BufTy).Contents (Elt Ideal)) (h : S64.ShapeCasts S1x64) :
    layer (F := Ideal) A X Wl Wr b = layerArr A X Wl Wr (shapeCast S1x64 b h) := by
  funext (i : S100000x64.Idx)
  unfold layer layerArr layerAt
  rw [maximumf_apply, addf_apply, addf_apply, host_product, host_product, HostBroadcast.bias_apply,
    HostBroadcast.scalar_apply, constant_apply]
  have e := VectorAsMatrix.row_apply (n := 64) b h (0 : Fin 1) (i 1)
  beta_reduce
  rw [e]

/-- The classifier of a layer is the array of logits, its bias held as a 1 by 1 array. -/
theorem classify_layer_eq (A H : (⟨S100000x64, .f32⟩ : BufTy).Contents (Elt Ideal))
    (Wl Wr : (⟨S64x64, .f32⟩ : BufTy).Contents (Elt Ideal)) (b : (⟨S64, .f32⟩ : BufTy).Contents (Elt Ideal))
    (Wc : (⟨S64x1, .f32⟩ : BufTy).Contents (Elt Ideal)) (bc : (⟨S1, .f32⟩ : BufTy).Contents (Elt Ideal))
    (h : S64.ShapeCasts S1x64) (h1 : S1.ShapeCasts S1x1) :
    classify (F := Ideal) (layer (F := Ideal) A H Wl Wr b) Wc bc
      = logitArr A H Wl Wr (shapeCast S1x64 b h) Wc (shapeCast S1x1 bc h1) := by
  rw [layer_eq A H Wl Wr b h]
  funext (i : S100000x1.Idx)
  unfold classify logitArr
  rw [addf_apply, host_column_product, HostBroadcast.bias_apply]
  have e := VectorAsMatrix.row_apply (n := 1) bc h1 (0 : Fin 1) (i 1)
  rw [e]
  rfl

end Cert.Sage

end
-- ==== Proof.KernelValue.lean ====
/-
  The idealized kernel computes the network.

  Its result buffer ends at the second kernel's output array, which is the array of logits of what that kernel was
  entered with: the second aggregation, the first kernel's output array, the second layer's weights, the classifier
  matrix and the two biases. The first kernel's output array is the first layer of the first aggregation and the input
  rows. Both aggregations are the network's own aggregation, so the result is the network of the arguments.
-/
import proofs.«111757_j59742995087911_1_alg».proof.Proof.KernelRun
import proofs.«111757_j59742995087911_1_alg».proof.Proof.HostBetween
import proofs.«111757_j59742995087911_1_alg».proof.Proof.FirstKernel
import proofs.«111757_j59742995087911_1_alg».proof.Proof.SecondKernel
import proofs.«111757_j59742995087911_1_alg».proof.Proof.RefLayers

set_option maxRecDepth 16384

noncomputable section

namespace Cert.KernelIdeal.Whole

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- The first kernel's output array is the first layer's output. -/
theorem hidden_array (c : Dev nD) :
    (dat0 (V1 m ρ) c).arrAt 5 cfg0.N = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (First.final (V1 m ρ) c).trans (by
    rw [show V1 m ρ c main_v22 = _ from HostSide.first_agg m ρ c,
      show V1 m ρ c main_arg0 = _ from HostSide.first_arg m ρ c main_arg0 (by simp),
      show V1 m ρ c main_arg2 = _ from HostSide.first_arg m ρ c main_arg2 (by simp),
      show V1 m ρ c main_arg3 = _ from HostSide.first_arg m ρ c main_arg3 (by simp),
      show V1 m ρ c main_v23 = _ from HostSide.first_bias m ρ c]
    exact (layer_eq _ _ _ _ _ _).symm)

/-- The second kernel's output array is the network of the arguments. -/
theorem result_array (c : Dev nD) :
    (dat1 (V3 m ρ) c).arrAt 7 cfg1.N
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Second.final (V3 m ρ) c).trans (by
    rw [show V3 m ρ c main_v36 = _ from HostSide.second_agg m ρ c,
      show V3 m ρ c main_v24 = _ from HostSide.second_hidden m ρ c,
      show V3 m ρ c main_arg5 = _ from HostSide.second_arg5 m ρ c,
      show V3 m ρ c main_arg6 = _ from HostSide.second_arg6 m ρ c,
      show V3 m ρ c main_v37 = _ from HostSide.second_bias m ρ c,
      show V3 m ρ c main_arg8 = _ from HostSide.second_arg8 m ρ c,
      show V3 m ρ c main_v38 = _ from HostSide.classifier_bias m ρ c,
      show W2 m ρ c (Proc.devRef .tc main_v24) = _ from (W2_arr m ρ c 5).trans (hidden_array m ρ c)]
    exact (classify_layer_eq _ _ _ _ _ _ _ _ _).symm)

/-- Every weakly fair execution of the idealized kernel terminates with the result buffer at the network of the
    arguments and the arguments unchanged. -/
theorem run : θ_run defs (onTc (τ := τ) (main (F := Ideal))) ⟨m, fun _ => 0, ρ⟩ (fun r => ∀ c : Dev nD,
      r.2.mem ((c.tc : Thread nD τ).loc main_v39)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_array m ρ c), (h c).2⟩) (RunNamed.run_named m ρ)

end Cert.KernelIdeal.Whole

end
-- ==== Proof.RefSide.lean ====
/-
  The idealized reference computes the network: its run's result term, the composition of its host operations over
  the argument arrays, is the network's definition spelt out.
-/
import proofs.«111757_j59742995087911_1_alg».proof.Proof.Spec
import proofs.«111757_j59742995087911_1_alg».proof.Proof.Gen.ReferenceIdeal.Run

noncomputable section

namespace Cert.Sage

open Cert.ReferenceIdeal Cert.ReferenceIdeal.Gen Idealize.ShloMosaic Idealize.ShloMosaic.TcCoe Idealize.SL.Sem

variable {F : FTy → Type} [FloatOps F]

set_option maxRecDepth 8192 in
/-- The reference's result is the network of its arguments. -/
theorem reference_result (m : (ℓ : Loc nD τ sig) → Buf (Elt F) ℓ) (c : Dev nD) :
    Cert.ReferenceIdeal.Value.res_main_v59 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v59 net hidden classify layer meanAgg inDegree wrappedSources targets sources
  rfl

end Cert.Sage

end
-- ==== Proof.lean ====
/-
  The certificate of a two-layer mean-aggregating graph network with a linear classifier.

  The kernel computes the mean aggregation of the node features with host operations, runs one layer as a kernel
  tiled over 5000-row blocks of the 100000 nodes, aggregates that layer's output in the same way, and runs the second
  layer together with the classifier as a second kernel. The reference is the same network written with plain matrix
  products. On the extended reals the format changes inside the kernels are the identity and a tile of a matrix product
  over all 64 contracted positions is the product's own rows, so both programs compute one function of the arguments;
  no algebraic law beyond that is used and the finiteness of the inputs is not needed.

  The three frames are the generated ones (the reference's is its run with the result dropped); the idealization rewrote
  nothing, so the second program is the first one read on the extended reals.
-/
import proofs.«111757_j59742995087911_1_alg».proof.Defs
import proofs.«111757_j59742995087911_1_alg».proof.Proof.Gen.Kernel
import proofs.«111757_j59742995087911_1_alg».proof.Proof.Gen.Kernel.Skeleton
import proofs.«111757_j59742995087911_1_alg».proof.Proof.Gen.Kernel.Launch
import proofs.«111757_j59742995087911_1_alg».proof.Proof.Gen.Kernel.Points
import proofs.«111757_j59742995087911_1_alg».proof.Proof.Gen.Kernel.Frame
import proofs.«111757_j59742995087911_1_alg».proof.Proof.Gen.KernelIdeal
import proofs.«111757_j59742995087911_1_alg».proof.Proof.Gen.KernelIdeal.Skeleton
import proofs.«111757_j59742995087911_1_alg».proof.Proof.Gen.KernelIdeal.Launch
import proofs.«111757_j59742995087911_1_alg».proof.Proof.Gen.KernelIdeal.Points
import proofs.«111757_j59742995087911_1_alg».proof.Proof.Gen.KernelIdeal.Frame
import proofs.«111757_j59742995087911_1_alg».proof.Proof.Gen.ReferenceIdeal
import proofs.«111757_j59742995087911_1_alg».proof.Proof.Gen.Pre_finite_inputs
import proofs.«111757_j59742995087911_1_alg».proof.Proof.Gen.ReferenceIdeal.Run
import proofs.«111757_j59742995087911_1_alg».proof.Proof.Gen.ReferenceIdeal.Read
import proofs.«111757_j59742995087911_1_alg».proof.Proof.KernelValue
import proofs.«111757_j59742995087911_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end at the network of their arguments, and the arguments agree. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.reference_result]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
